-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S8x2048x256 .f32) (main_arg1 : FVec F S256 .f32) (main_arg2 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8x2048x256 : Shape := ⟨3, ![8, 2048, 256]⟩
abbrev S256 : Shape := ⟨1, ![256]⟩
abbrev S1x256 : Shape := ⟨2, ![1, 256]⟩
abbrev S1x2048x256 : Shape := ⟨3, ![1, 2048, 256]⟩
abbrev S2048x256 : Shape := ⟨2, ![2048, 256]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S8x2048x256, .f32⟩
  | .hbm, ⟨1, _⟩ => ⟨S256, .f32⟩
  | .hbm, ⟨2, _⟩ => ⟨S256, .f32⟩
  | .hbm, ⟨3, _⟩ => ⟨S1x256, .f32⟩
  | .hbm, ⟨4, _⟩ => ⟨S1x256, .f32⟩
  | .hbm, ⟨5, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x256, .f32⟩
  | .local _ .vmem, ⟨3, _⟩ => ⟨S1x256, .f32⟩
  | .local _ .vmem, ⟨4, _⟩ => ⟨S1x2048x256, .f32⟩
  | .local _ .vmem, ⟨5, _⟩ => ⟨S1x2048x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  reduces_S2048x2048_S2048 : S2048x2048.Reduces [1] S2048
  broadcasts_S2048x1_S2048x2048 : S2048x1.Broadcasts S2048x2048
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S1x2048x256 : S2048x256.ShapeCasts S1x2048x256
  dot_S2048x256_S2048x256_S2048x2048_1_1_0_0_n_n_wf : DotDims.WF S2048x256 S2048x256 S2048x2048 [1] [1] [0] [0] [] []
  dot_S2048x2048_S2048x256_S2048x256_1_0_0_1_n_n_wf : DotDims.WF S2048x2048 S2048x256 S2048x256 [1] [0] [0] [1] [] []
  dot_S2048x2048_S2048x256_S2048x256_0_0_1_1_n_n_wf : DotDims.WF S2048x2048 S2048x256 S2048x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x256.size a
  hwx0_3 : ∀ i : grid0.Coords, EltTy.bits .f32 = 32 ∨ (Rect.block (s := S8x2048x256) S1x2048x256.size (cc0_transform_3 i) (hinb0_3 i)).WholeWords (EltTy.packing .f32)

variable [Facts₀]

def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x2048_S2048x256_S2048x256_0_0_1_1_n_n : DotDims S2048x2048 S2048x256 S2048x256 where
  lhsContracting := [0]
  rhsContracting := [0]
  lhsNonContracting := [1]
  rhsNonContracting := [1]
  lhsBatch := []
  rhsBatch := []
  wf := dot_S2048x2048_S2048x256_S2048x256_0_0_1_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S8x1x2048 : Shape := ⟨3, ![8, 1, 2048]⟩
abbrev S1x1x256 : Shape := ⟨3, ![1, 1, 256]⟩

abbrev nBuf : Space → Nat
  | .hbm => 80
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256, .f32⟩
  | .hbm, ⟨2, _⟩ => ⟨S256, .f32⟩
  | .hbm, ⟨3, _⟩ => ⟨S8x2048x256, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x256, .f32⟩
  | .hbm, ⟨12, _⟩ => ⟨S8x2048x256, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S8x1x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x1x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x256, .f32⟩
  | .hbm, ⟨47, _⟩ => ⟨S_, .f32⟩
  | .hbm, ⟨48, _⟩ => ⟨S8x2048x256, .f32⟩
  | .hbm, ⟨49, _⟩ => ⟨S8x2048x256, .f32⟩
  | .hbm, ⟨50, _⟩ => ⟨S8x2048x256, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x256, .f32⟩
  | .hbm, ⟨58, _⟩ => ⟨S8x2048x256, .f32⟩
  | .hbm, ⟨59, _⟩ => ⟨S8x2048x256, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x256, .f32⟩
  | .hbm, ⟨67, _⟩ => ⟨S8x2048x256, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x256, .f32⟩
  | .hbm, ⟨73, _⟩ => ⟨S8x2048x256, .f32⟩
  | .hbm, ⟨74, _⟩ => ⟨S1x1x256, .f32⟩
  | .hbm, ⟨75, _⟩ => ⟨S8x2048x256, .f32⟩
  | .hbm, ⟨76, _⟩ => ⟨S8x2048x256, .f32⟩
  | .hbm, ⟨77, _⟩ => ⟨S1x1x256, .f32⟩
  | .hbm, ⟨78, _⟩ => ⟨S8x2048x256, .f32⟩
  | .hbm, ⟨79, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_cst_10 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_11 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_13 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]

class Facts₀ : Prop where
  reducesTo_S8x2048x256_S8x2048_d2 : S8x2048x256.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x256_0_1_2 : S8x2048x1.BroadcastsInDim S8x2048x256 (![0, 1, 2] : Fin 3 → Fin S8x2048x256.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  reducesTo_S8x2048x2048_S8x2048_d1 : S8x2048x2048.ReducesTo [1] S8x2048
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S_S8x2048x256 : S_.BroadcastsInDim S8x2048x256 (![] : Fin 0 → Fin S8x2048x256.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Attend.lean ====
/-
  Rows that attend to one another, then a layer norm: the mathematics both programs compute, over the extended
  reals, for one matrix `X` of `N` rows and `D` columns.

  Each row is divided by its Euclidean length (kept away from zero by a small floor); the score of two rows is the
  inner product of their unit rows; a softmax is taken of the score matrix along its rows and along its columns; every
  row is then pulled by a tenth of the softmax-weighted mixture of all rows, and the result is normalised row by row
  (mean, variance, a scale and a shift per column).

  The mixture is written in two ways. `mixJoint` adds the row softmax and the column softmax and multiplies the sum
  into the rows once. `mixSplit` uses the row softmax only: once as it stands and once transposed, two products added.
  The score matrix is symmetric, so its column softmax is the transpose of its row softmax, and for weights that are
  not negative the product distributes over their sum; the laws are in the companion module.
-/
import Idealize.ShloMosaic.PureOps.Ideal

noncomputable section

open scoped BigOperators

namespace Cert.Attend

open Idealize.ShloMosaic

variable {N D : ℕ}

/-- Entry `(n, d)` of the unit rows: the entry over the larger of the row's length and the floor. -/
def unit (X : Fin N → Fin D → EReal) (n : Fin N) (d : Fin D) : EReal :=
  Ideal.div (X n d) (max (Ideal.sqrt (∑ k : Fin D, X n k * X n k)) (Ideal.ofBits .f32 0x2B8CBCCC#32))

/-- The score of rows `n` and `m`: the inner product of their unit rows. -/
def score (X : Fin N → Fin D → EReal) (n m : Fin N) : EReal :=
  ∑ k : Fin D, unit X n k * unit X m k

/-- The largest value of a finite family, counted from −∞. -/
def top {ι : Type} [Fintype ι] (f : ι → EReal) : EReal :=
  (Finset.univ : Finset ι).fold max (Ideal.ofBits .f32 0xFF800000#32) f

/-- The softmax along rows: `exp (S n m − the top of row n)` over the sum of those along row `n`. -/
def rowSoft (S : Fin N → Fin N → EReal) (n m : Fin N) : EReal :=
  Ideal.div (Ideal.exp (S n m - top fun k => S n k)) (∑ k : Fin N, Ideal.exp (S n k - top fun j => S n j))

/-- The softmax along columns: `exp (S n m − the top of column m)` over the sum of those along column `m`. -/
def colSoft (S : Fin N → Fin N → EReal) (n m : Fin N) : EReal :=
  Ideal.div (Ideal.exp (S n m - top fun k => S k m)) (∑ k : Fin N, Ideal.exp (S k m - top fun j => S j m))

/-- The mixture with the two softmaxes added first. -/
def mixJoint (X : Fin N → Fin D → EReal) (n : Fin N) (d : Fin D) : EReal :=
  ∑ m : Fin N, (rowSoft (score X) n m + colSoft (score X) n m) * X m d

/-- The mixture from the row softmax alone: as it stands, plus transposed. -/
def mixSplit (X : Fin N → Fin D → EReal) (n : Fin N) (d : Fin D) : EReal :=
  (∑ m : Fin N, rowSoft (score X) n m * X m d) + ∑ m : Fin N, rowSoft (score X) m n * X m d

/-- A row pulled by a tenth of its mixture. -/
def pulled (mix : Fin N → Fin D → EReal) (X : Fin N → Fin D → EReal) (n : Fin N) (d : Fin D) : EReal :=
  X n d - Ideal.ofBits .f32 0x3DCCCCCD#32 * mix n d

/-- The mean of row `n` (the divisor is the word of 256, the number of columns of the programs). -/
def rowMean (Y : Fin N → Fin D → EReal) (n : Fin N) : EReal :=
  Ideal.div (∑ d : Fin D, Y n d) (Ideal.ofBits .f32 0x43800000#32)

/-- The variance of row `n` about its mean. -/
def rowVar (Y : Fin N → Fin D → EReal) (n : Fin N) : EReal :=
  Ideal.div (∑ d : Fin D, (Y n d - rowMean Y n) * (Y n d - rowMean Y n)) (Ideal.ofBits .f32 0x43800000#32)

/-- The layer norm of `Y` with scale `g` and shift `b`. -/
def layerNorm (Y : Fin N → Fin D → EReal) (g b : Fin D → EReal) (n : Fin N) (d : Fin D) : EReal :=
  (Y n d - rowMean Y n) * Ideal.rsqrt (rowVar Y n + Ideal.ofBits .f32 0x358637BD#32) * g d + b d

/-- What the kernel leaves at `(n, d)` of a block `X`. -/
def outSplit (X : Fin N → Fin D → EReal) (g b : Fin D → EReal) (n : Fin N) (d : Fin D) : EReal :=
  layerNorm (pulled (mixSplit X) X) g b n d

/-- What the reference leaves at `(n, d)` of a batch entry `X`. -/
def outJoint (X : Fin N → Fin D → EReal) (g b : Fin D → EReal) (n : Fin N) (d : Fin D) : EReal :=
  layerNorm (pulled (mixJoint X) X) g b n d

/-! ## Four facts about the words and the top -/

/-- The larger of −∞'s word and a top counted from that word is the top. -/
theorem top_absorb {ι : Type} [Fintype ι] (f : ι → EReal) : max (Ideal.ofBits .f32 0xFF800000#32) (top f) = top f :=
  max_eq_right ((Finset.le_fold_max _).mpr (Or.inl le_rfl))

/-- The word of `1.0` is the real number one. -/
theorem word_one : Ideal.ofBits .f32 0x3F800000#32 = ((1 : ℝ) : EReal) := by
  simp [Ideal.ofBits, Ideal.ieee, -EReal.coe_mul]; norm_num

/-- Dividing by the word of `1.0` changes nothing, at the infinities either. -/
theorem div_word_one (s : EReal) : Ideal.div s (Ideal.ofBits .f32 0x3F800000#32) = s := by
  rw [word_one, Ideal.div_coe one_ne_zero]; simp

/-- The word `0xFF800000` is −∞. -/
theorem word_neg_inf : Ideal.ofBits .f32 0xFF800000#32 = (⊥ : EReal) := by
  simp [Ideal.ofBits, Ideal.ieee]

end Cert.Attend

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.AttendLaws.lean ====
/-
  The laws that join the two spellings of the mixture.

  For a matrix of real numbers everything up to the softmax is a real number: the sum of a row's squares is a real that
  is not negative, so its root is a real; the larger of that root and the floor is a positive real, so a unit row's
  entries are reals; scores are finite sums of products of reals; the top of a row of reals is one of them; the
  exponential of a real is a positive real. The sum along a row of the softmax's exponentials is therefore not zero
  and not negative, and every softmax weight is not negative.

  The score matrix is symmetric because multiplication commutes; for a symmetric matrix the column softmax at
  `(n, m)` is the row softmax at `(m, n)`. On the extended reals a product distributes over a sum of two weights that
  are not negative, whatever the other factor, and a finite sum of sums is the sum of the finite sums: so the joint
  mixture is the split one.
-/
import proofs.«141216_j12730283065572_2_alg».proof.Proof.Attend
import proofs.«141216_j12730283065572_2_alg».proof.Proof.LibFinite

noncomputable section

open scoped BigOperators

namespace Cert.Attend

open Idealize.ShloMosaic Cert.LibFinite

variable {N D : ℕ}

/-! ## Real numbers among the extended reals -/

theorem isFin_bot_lt {x : EReal} (h : IsFin x) : ⊥ < x := by
  obtain ⟨r, rfl⟩ := h; exact EReal.bot_lt_coe r

theorem isFin_lt_top {x : EReal} (h : IsFin x) : x < ⊤ := by
  obtain ⟨r, rfl⟩ := h; exact EReal.coe_lt_top r

/-- An extended real that is neither infinity is a real number. -/
theorem isFin_of_ne {x : EReal} (h1 : x ≠ ⊥) (h2 : x ≠ ⊤) : IsFin x :=
  ⟨x.toReal, (EReal.coe_toReal h2 h1).symm⟩

/-- The larger of two reals, taken among the extended reals, is the larger real. -/
theorem coe_max_coe (q r : ℝ) : max (q : EReal) (r : EReal) = ((max q r : ℝ) : EReal) := by
  rcases le_total q r with hle | hle
  · rw [max_eq_right hle, max_eq_right (EReal.coe_le_coe_iff.mpr hle)]
  · rw [max_eq_left hle, max_eq_left (EReal.coe_le_coe_iff.mpr hle)]

/-- The root of a real that is not negative is a real. -/
theorem isFin_sqrt {x : EReal} (h : IsFin x) (h0 : 0 ≤ x) : IsFin (Ideal.sqrt x) := by
  obtain ⟨r, rfl⟩ := h
  have hr : ¬ r < 0 := not_lt.mpr (EReal.coe_nonneg.mp h0)
  rw [Ideal.sqrt_coe, if_neg hr]
  exact isFin_coe _

/-- The exponential is never negative. -/
theorem exp_nonneg (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

/-- The exponential of a real is a positive real. -/
theorem exp_pos_of_isFin {x : EReal} (h : IsFin x) : 0 < Ideal.exp x := by
  obtain ⟨r, rfl⟩ := h
  rw [Ideal.exp_coe]; exact EReal.coe_pos.mpr (Real.exp_pos r)

theorem isFin_exp {x : EReal} (h : IsFin x) : IsFin (Ideal.exp x) := by
  obtain ⟨r, rfl⟩ := h
  rw [Ideal.exp_coe]; exact isFin_coe _

/-- The floor under a row's length is a positive real. -/
theorem word_floor : ∃ r : ℝ, 0 < r ∧ Ideal.ofBits .f32 0x2B8CBCCC#32 = (r : EReal) := by
  refine ⟨((2 ^ 23 + 834764 : ℕ) : ℝ) * (2 : ℝ) ^ ((87 : ℤ) - 127 - 23), by positivity, ?_⟩
  simp [Ideal.ofBits, Ideal.ieee, -EReal.coe_mul]

/-- The top of a family of reals that is not empty is a real: it is above one of them and below +∞. -/
theorem isFin_top {ι : Type} [Fintype ι] [Nonempty ι] (f : ι → EReal) (h : ∀ i, IsFin (f i)) : IsFin (top f) := by
  obtain ⟨i0⟩ := ‹Nonempty ι›
  refine isFin_of_ne (ne_of_gt ?_) (ne_of_lt ?_)
  · exact (Finset.lt_fold_max _).mpr (Or.inr ⟨i0, Finset.mem_univ _, isFin_bot_lt (h i0)⟩)
  · exact (Finset.fold_max_lt _).mpr ⟨by rw [word_neg_inf]; exact bot_lt_top, fun i _ => isFin_lt_top (h i)⟩

/-! ## The unit rows and the scores of a real matrix -/

section RealMatrix

variable (X : Fin N → Fin D → EReal) (hX : ∀ n d, IsFin (X n d))
include hX

theorem isFin_unit (n : Fin N) (d : Fin D) : IsFin (unit X n d) := by
  have hs : IsFin (∑ k : Fin D, X n k * X n k) := IsFin.sum _ _ fun k _ => (hX n k).mul (hX n k)
  have h0 : 0 ≤ ∑ k : Fin D, X n k * X n k := Finset.sum_nonneg fun k _ => by
    obtain ⟨r, hr⟩ := hX n k
    rw [hr, ← EReal.coe_mul]; exact EReal.coe_nonneg.mpr (mul_self_nonneg r)
  obtain ⟨q, hq⟩ := isFin_sqrt hs h0
  obtain ⟨r0, hr0, hw⟩ := word_floor
  have hden : max (Ideal.sqrt (∑ k : Fin D, X n k * X n k)) (Ideal.ofBits .f32 0x2B8CBCCC#32) = ((max q r0 : ℝ) : EReal) := by
    rw [hq, hw, coe_max_coe]
  have hpos : (0 : ℝ) < max q r0 := lt_max_of_lt_right hr0
  unfold unit
  rw [hden]
  exact (hX n d).div (isFin_coe _) (EReal.coe_pos.mpr hpos).ne'

theorem isFin_score (n m : Fin N) : IsFin (score X n m) :=
  IsFin.sum _ _ fun k _ => (isFin_unit X hX n k).mul (isFin_unit X hX m k)

end RealMatrix

/-- Multiplication commutes, so the score matrix is symmetric. -/
theorem score_symm (X : Fin N → Fin D → EReal) (n m : Fin N) : score X n m = score X m n :=
  Finset.sum_congr rfl fun k _ => mul_comm _ _

/-! ## The softmax of a matrix of reals -/

/-- Every weight of the row softmax of a real matrix is not negative: the exponentials are not negative, and the sum
    along a row is at least the exponential on the diagonal, which is positive. -/
theorem rowSoft_nonneg (S : Fin N → Fin N → EReal) (hS : ∀ a b, IsFin (S a b)) (n m : Fin N) : 0 ≤ rowSoft S n m := by
  haveI : Nonempty (Fin N) := ⟨n⟩
  have htop : IsFin (top fun j => S n j) := isFin_top _ fun j => hS n j
  have hnn : ∀ k, 0 ≤ Ideal.exp (S n k - top fun j => S n j) := fun k => exp_nonneg _
  have hdiag : 0 < Ideal.exp (S n n - top fun j => S n j) := exp_pos_of_isFin ((hS n n).sub htop)
  have hle : Ideal.exp (S n n - top fun j => S n j) ≤ ∑ k : Fin N, Ideal.exp (S n k - top fun j => S n j) :=
    Finset.single_le_sum (f := fun k => Ideal.exp (S n k - top fun j => S n j)) (fun k _ => hnn k) (Finset.mem_univ n)
  have hsum : 0 < ∑ k : Fin N, Ideal.exp (S n k - top fun j => S n j) := lt_of_lt_of_le hdiag hle
  unfold rowSoft Ideal.div
  rw [if_neg hsum.ne']
  exact EReal.mul_nonneg (hnn m) (EReal.inv_nonneg_of_nonneg hsum.le)

/-- For a symmetric matrix the column softmax is the row softmax transposed. -/
theorem colSoft_eq_rowSoft_swap (S : Fin N → Fin N → EReal) (hS : ∀ a b, S a b = S b a) (n m : Fin N) :
    colSoft S n m = rowSoft S m n := by
  have h1 : (fun k => S k m) = fun k => S m k := funext fun k => hS k m
  unfold colSoft rowSoft
  rw [h1, hS n m]
  exact congrArg _ (Finset.sum_congr rfl fun k _ => by rw [hS k m])

/-! ## The two mixtures -/

/-- For a real matrix the joint mixture is the split one. -/
theorem mixJoint_eq_mixSplit (X : Fin N → Fin D → EReal) (hX : ∀ n d, IsFin (X n d)) : mixJoint X = mixSplit X := by
  funext n d
  unfold mixJoint mixSplit
  rw [← Finset.sum_add_distrib]
  refine Finset.sum_congr rfl fun m _ => ?_
  rw [colSoft_eq_rowSoft_swap (score X) (score_symm X) n m]
  exact EReal.right_distrib_of_nonneg (rowSoft_nonneg _ (isFin_score X hX) n m) (rowSoft_nonneg _ (isFin_score X hX) m n)

/-- So the two outputs agree on a real matrix, whatever the scale and the shift. -/
theorem outJoint_eq_outSplit (X : Fin N → Fin D → EReal) (hX : ∀ n d, IsFin (X n d)) (g b : Fin D → EReal) :
    outJoint X g b = outSplit X g b := by
  unfold outJoint outSplit
  rw [mixJoint_eq_mixSplit X hX]

end Cert.Attend

end
-- ==== Proof.Finite.lean ====
/-
  The precondition read back: it ends in three `jnp.all`s joined by `and`, the first over `|x| < +∞` at every
  entry of the first argument. If the whole is one, every entry of the first argument has an absolute value below
  +∞, and such an extended real is a real number.
-/
import proofs.«141216_j12730283065572_2_alg».proof.Pre_finite_inputs
import proofs.«141216_j12730283065572_2_alg».proof.Proof.LibFinite
import Idealize.ShloMosaic.Lib.ReduceAll
import Idealize.ShloMosaic.Lib.ValueIdx

noncomputable section

namespace Cert.FiniteIn

open Idealize.ShloMosaic Cert.LibFinite Cert.Pre_finite_inputs

instance : Subsingleton S_.Idx := ⟨fun a b => funext fun d => d.elim0⟩

/-- An extended real whose absolute value is below +∞ is a real number. -/
theorem isFin_of_abs_lt (x : EReal) (h : Ideal.cmp .olt (max x (-x)) (Ideal.ofBits .f32 0x7F800000#32) = 1#1) : IsFin x := by
  have ht : Ideal.ofBits .f32 0x7F800000#32 = (⊤ : EReal) := by simp [Ideal.ofBits, Ideal.ieee]
  rw [ht] at h
  induction x using EReal.rec with
  | bot => simp [Ideal.cmp] at h
  | top => simp [Ideal.cmp] at h
  | coe r => exact isFin_coe r

theorem x_real [Facts] (a0 : FVec Ideal S8x2048x256 .f32) (a1 a2 : FVec Ideal S256 .f32)
    (h : fn (F := Ideal) a0 a1 a2 = fun _ => 1#1) (i : S8x2048x256.Idx) : IsFin (a0 i) := by
  have h0 := congrFun h ValueIdx.ix0
  dsimp only [fn] at h0
  obtain ⟨h01, _⟩ := IntOp.andi_eq_one.1 h0
  obtain ⟨hx, _⟩ := IntOp.andi_eq_one.1 h01
  have hi := Host.reduce_andi_all _ _ _ _ ValueIdx.ix0 hx i
  exact isFin_of_abs_lt (a0 i) hi

end Cert.FiniteIn

end
-- ==== Proof.RefRead.lean ====
/-
  The reference, read at an index: what it leaves at batch entry `b`, row `n`, column `d` is the joint-mixture output
  of that batch entry's matrix.
-/
import proofs.«141216_j12730283065572_2_alg».proof.Proof.Attend
import proofs.«141216_j12730283065572_2_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefRead

open Idealize.ShloMosaic Idealize.ShloMosaic.ValueIdx Cert.ReferenceIdeal Cert.ReferenceIdeal.Read

/-! ## The unit rows -/

theorem idx_v6 (b : Fin 8) (n : Fin 2048) (d : Fin 256) : idx_main_v6 (ix3 b n d) = ix3 b n (0 : Fin 1) :=
  funext fun a => Fin.ext (by match a with | ⟨0, _⟩ => rfl | ⟨1, _⟩ => rfl | ⟨2, _⟩ => rfl)

theorem idx_v2 (b : Fin 8) (n : Fin 2048) : idx_main_v2 (ix3 b n (0 : Fin 1)) = ix2 b n :=
  funext fun a => Fin.ext (by match a with | ⟨0, _⟩ => rfl | ⟨1, _⟩ => rfl)

theorem idx_v1 (b : Fin 8) (n : Fin 2048) (k : Fin 256) : idx_main_v1 (ix2 b n) k = ix3 b n k :=
  funext fun a => Fin.ext (by match a with | ⟨0, _⟩ => rfl | ⟨1, _⟩ => rfl | ⟨2, _⟩ => rfl)

/-- The seventh value is the unit row: the entry over the larger of the row's length and the floor. -/
theorem v7_read (x0 : (⟨S8x2048x256, .f32⟩ : BufTy).Contents (Elt Ideal)) (b : Fin 8) (n : Fin 2048) (d : Fin 256) :
    val_main_v7 (F := Ideal) x0 (ix3 b n d) = Cert.Attend.unit (fun n d => x0 (ix3 b n d)) n d := by
  rw [val_main_v7_apply, val_main_v6_apply, idx_v6, val_main_v5_apply, val_main_v3_apply, val_main_v2_apply, idx_v2,
    val_main_v1_apply, val_main_v4_apply, val_main_cst_0_apply, val_main_cst_apply]
  simp only [idx_v1, val_main_v0_apply, Ideal.mulf_def, Ideal.hostDivf_def, Ideal.maximumf_def, Ideal.hostUnary_sqrt_def,
    Ideal.ofBits_def, Ideal.ofBits_zero_f32, zero_add]
  rfl

/-! ## The scores -/

theorem lidx_v8 (b : Fin 8) (n m : Fin 2048) (k : Fin 256) : lidx_main_v8 (ix3 b n m) k = ix3 b n k :=
  funext fun a => Fin.ext (by match a with | ⟨0, _⟩ => rfl | ⟨1, _⟩ => rfl | ⟨2, _⟩ => rfl)

theorem ridx_v8 (b : Fin 8) (n m : Fin 2048) (k : Fin 256) : ridx_main_v8 (ix3 b n m) k = ix3 b m k :=
  funext fun a => Fin.ext (by match a with | ⟨0, _⟩ => rfl | ⟨1, _⟩ => rfl | ⟨2, _⟩ => rfl)

/-- The tenth value is the score: the inner product of two unit rows, over the word of one. -/
theorem v10_read (x0 : (⟨S8x2048x256, .f32⟩ : BufTy).Contents (Elt Ideal)) (b : Fin 8) (n m : Fin 2048) :
    val_main_v10 (F := Ideal) x0 (ix3 b n m) = Cert.Attend.score (fun n d => x0 (ix3 b n d)) n m := by
  rw [val_main_v10_apply, val_main_v9_apply, val_main_cst_1_apply, val_main_v8_apply]
  simp only [lidx_v8, ridx_v8, v7_read, Ideal.hostDivf_def, Ideal.ofBits_def]
  rw [Cert.Attend.div_word_one]
  rfl

/-! ## The softmax along rows -/

/-- A matrix index with its last coordinate put back. -/
theorem lift_d2 (h : S8x2048x2048.Reduces [2] S8x2048) (b : Fin 8) (n : Fin 2048) (k : Fin (S8x2048x2048.size 2)) :
    h.lift (ix2 b n) k = ix3 b n (⟨k.val, k.isLt⟩ : Fin 2048) := by
  funext c; apply Fin.ext
  fin_cases c <;> rfl

/-- The maximum-reduction over the last axis is the top of the row. -/
theorem v11_read (x0 : (⟨S8x2048x256, .f32⟩ : BufTy).Contents (Elt Ideal)) (b : Fin 8) (n : Fin 2048) :
    val_main_v11 (F := Ideal) x0 (ix2 b n) = Cert.Attend.top fun k : Fin 2048 => val_main_v10 (F := Ideal) x0 (ix3 b n k) := by
  unfold val_main_v11
  generalize val_main_v10 (F := Ideal) x0 = y
  have h : S8x2048x2048.Reduces [2] S8x2048 := by decide
  refine (Host.reduce_eq_fold_single _ y _ Gen.reducesTo_S8x2048x2048_S8x2048_d2 h Gen.h_S_ (ix2 b n)).trans ?_
  have hf : (y ∘ h.lift (ix2 b n)) = fun k : Fin 2048 => y (ix3 b n k) := funext fun k => congrArg y (lift_d2 h b n k)
  rw [hf]
  rfl

theorem idx_v15 (b : Fin 8) (n m : Fin 2048) : idx_main_v15 (ix3 b n m) = ix3 b n (0 : Fin 1) :=
  funext fun a => Fin.ext (by match a with | ⟨0, _⟩ => rfl | ⟨1, _⟩ => rfl | ⟨2, _⟩ => rfl)

theorem idx_v14 (b : Fin 8) (n : Fin 2048) : idx_main_v14 (ix3 b n (0 : Fin 1)) = ix2 b n :=
  funext fun a => Fin.ext (by match a with | ⟨0, _⟩ => rfl | ⟨1, _⟩ => rfl)

theorem idx_v20 (b : Fin 8) (n m : Fin 2048) : idx_main_v20 (ix3 b n m) = ix3 b n (0 : Fin 1) :=
  funext fun a => Fin.ext (by match a with | ⟨0, _⟩ => rfl | ⟨1, _⟩ => rfl | ⟨2, _⟩ => rfl)

theorem idx_v19 (b : Fin 8) (n : Fin 2048) : idx_main_v19 (ix3 b n (0 : Fin 1)) = ix2 b n :=
  funext fun a => Fin.ext (by match a with | ⟨0, _⟩ => rfl | ⟨1, _⟩ => rfl)

theorem idx_v18 (b : Fin 8) (n k : Fin 2048) : idx_main_v18 (ix2 b n) k = ix3 b n k :=
  funext fun a => Fin.ext (by match a with | ⟨0, _⟩ => rfl | ⟨1, _⟩ => rfl | ⟨2, _⟩ => rfl)

/-- The thirteenth value, the larger of −∞ and the reduction, is the top of the score's row. -/
theorem v13_read (x0 : (⟨S8x2048x256, .f32⟩ : BufTy).Contents (Elt Ideal)) (b : Fin 8) (n : Fin 2048) :
    val_main_v13 (F := Ideal) x0 (ix2 b n)
      = Cert.Attend.top fun k : Fin 2048 => Cert.Attend.score (fun n d => x0 (ix3 b n d)) n k := by
  rw [val_main_v13_apply, val_main_v12_apply, val_main_cst_3_apply, v11_read]
  simp only [v10_read, Ideal.maximumf_def, Ideal.ofBits_def]
  exact Cert.Attend.top_absorb _

/-- The seventeenth value: the exponential of the score less the top of its row. -/
theorem v17_read (x0 : (⟨S8x2048x256, .f32⟩ : BufTy).Contents (Elt Ideal)) (b : Fin 8) (n m : Fin 2048) :
    val_main_v17 (F := Ideal) x0 (ix3 b n m)
      = Ideal.exp (Cert.Attend.score (fun n d => x0 (ix3 b n d)) n m
          - Cert.Attend.top fun k : Fin 2048 => Cert.Attend.score (fun n d => x0 (ix3 b n d)) n k) := by
  rw [val_main_v17_apply, val_main_v16_apply, val_main_v15_apply, idx_v15, val_main_v14_apply, idx_v14, v13_read, v10_read]
  simp only [Ideal.hostUnary_exp_def, Ideal.subf_def]

/-- The eighteenth value: the sum of those exponentials along the row. -/
theorem v18_read (x0 : (⟨S8x2048x256, .f32⟩ : BufTy).Contents (Elt Ideal)) (b : Fin 8) (n : Fin 2048) :
    val_main_v18 (F := Ideal) x0 (ix2 b n)
      = ∑ k : Fin 2048, Ideal.exp (Cert.Attend.score (fun n d => x0 (ix3 b n d)) n k
          - Cert.Attend.top fun j : Fin 2048 => Cert.Attend.score (fun n d => x0 (ix3 b n d)) n j) := by
  rw [val_main_v18_apply, val_main_cst_4_apply]
  simp only [idx_v18, v17_read, Ideal.ofBits_def, Ideal.ofBits_zero_f32, zero_add]

/-- The twenty-first value is the softmax of the score along its rows. -/
theorem v21_read (x0 : (⟨S8x2048x256, .f32⟩ : BufTy).Contents (Elt Ideal)) (b : Fin 8) (n m : Fin 2048) :
    val_main_v21 (F := Ideal) x0 (ix3 b n m)
      = Cert.Attend.rowSoft (Cert.Attend.score (fun n d => x0 (ix3 b n d))) n m := by
  rw [val_main_v21_apply, val_main_v20_apply, idx_v20, val_main_v19_apply, idx_v19, v18_read, v17_read]
  simp only [Ideal.hostDivf_def]
  rfl

/-! ## The softmax along columns -/

/-- A matrix index with its middle coordinate put back. -/
theorem lift_d1 (h : S8x2048x2048.Reduces [1] S8x2048) (b : Fin 8) (m : Fin 2048) (k : Fin (S8x2048x2048.size 1)) :
    h.lift (ix2 b m) k = ix3 b (⟨k.val, k.isLt⟩ : Fin 2048) m := by
  funext c; apply Fin.ext
  fin_cases c <;> rfl

/-- The maximum-reduction over the middle axis is the top of the column. -/
theorem v22_read (x0 : (⟨S8x2048x256, .f32⟩ : BufTy).Contents (Elt Ideal)) (b : Fin 8) (m : Fin 2048) :
    val_main_v22 (F := Ideal) x0 (ix2 b m) = Cert.Attend.top fun k : Fin 2048 => val_main_v10 (F := Ideal) x0 (ix3 b k m) := by
  unfold val_main_v22
  generalize val_main_v10 (F := Ideal) x0 = y
  have h : S8x2048x2048.Reduces [1] S8x2048 := by decide
  refine (Host.reduce_eq_fold_single _ y _ Gen.reducesTo_S8x2048x2048_S8x2048_d1 h Gen.h_S_ (ix2 b m)).trans ?_
  have hf : (y ∘ h.lift (ix2 b m)) = fun k : Fin 2048 => y (ix3 b k m) := funext fun k => congrArg y (lift_d1 h b m k)
  rw [hf]
  rfl

theorem idx_v26 (b : Fin 8) (n m : Fin 2048) : idx_main_v26 (ix3 b n m) = ix3 b (0 : Fin 1) m :=
  funext fun a => Fin.ext (by match a with | ⟨0, _⟩ => rfl | ⟨1, _⟩ => rfl | ⟨2, _⟩ => rfl)

theorem idx_v25 (b : Fin 8) (m : Fin 2048) : idx_main_v25 (ix3 b (0 : Fin 1) m) = ix2 b m :=
  funext fun a => Fin.ext (by match a with | ⟨0, _⟩ => rfl | ⟨1, _⟩ => rfl)

theorem idx_v31 (b : Fin 8) (n m : Fin 2048) : idx_main_v31 (ix3 b n m) = ix3 b (0 : Fin 1) m :=
  funext fun a => Fin.ext (by match a with | ⟨0, _⟩ => rfl | ⟨1, _⟩ => rfl | ⟨2, _⟩ => rfl)

theorem idx_v30 (b : Fin 8) (m : Fin 2048) : idx_main_v30 (ix3 b (0 : Fin 1) m) = ix2 b m :=
  funext fun a => Fin.ext (by match a with | ⟨0, _⟩ => rfl | ⟨1, _⟩ => rfl)

theorem idx_v29 (b : Fin 8) (m k : Fin 2048) : idx_main_v29 (ix2 b m) k = ix3 b k m :=
  funext fun a => Fin.ext (by match a with | ⟨0, _⟩ => rfl | ⟨1, _⟩ => rfl | ⟨2, _⟩ => rfl)

/-- The twenty-fourth value, the larger of −∞ and the reduction, is the top of the score's column. -/
theorem v24_read (x0 : (⟨S8x2048x256, .f32⟩ : BufTy).Contents (Elt Ideal)) (b : Fin 8) (m : Fin 2048) :
    val_main_v24 (F := Ideal) x0 (ix2 b m)
      = Cert.Attend.top fun k : Fin 2048 => Cert.Attend.score (fun n d => x0 (ix3 b n d)) k m := by
  rw [val_main_v24_apply, val_main_v23_apply, val_main_cst_6_apply, v22_read]
  simp only [v10_read, Ideal.maximumf_def, Ideal.ofBits_def]
  exact Cert.Attend.top_absorb _

/-- The twenty-eighth value: the exponential of the score less the top of its column. -/
theorem v28_read (x0 : (⟨S8x2048x256, .f32⟩ : BufTy).Contents (Elt Ideal)) (b : Fin 8) (n m : Fin 2048) :
    val_main_v28 (F := Ideal) x0 (ix3 b n m)
      = Ideal.exp (Cert.Attend.score (fun n d => x0 (ix3 b n d)) n m
          - Cert.Attend.top fun k : Fin 2048 => Cert.Attend.score (fun n d => x0 (ix3 b n d)) k m) := by
  rw [val_main_v28_apply, val_main_v27_apply, val_main_v26_apply, idx_v26, val_main_v25_apply, idx_v25, v24_read, v10_read]
  simp only [Ideal.hostUnary_exp_def, Ideal.subf_def]

/-- The twenty-ninth value: the sum of those exponentials down the column. -/
theorem v29_read (x0 : (⟨S8x2048x256, .f32⟩ : BufTy).Contents (Elt Ideal)) (b : Fin 8) (m : Fin 2048) :
    val_main_v29 (F := Ideal) x0 (ix2 b m)
      = ∑ k : Fin 2048, Ideal.exp (Cert.Attend.score (fun n d => x0 (ix3 b n d)) k m
          - Cert.Attend.top fun j : Fin 2048 => Cert.Attend.score (fun n d => x0 (ix3 b n d)) j m) := by
  rw [val_main_v29_apply, val_main_cst_7_apply]
  simp only [idx_v29, v28_read, Ideal.ofBits_def, Ideal.ofBits_zero_f32, zero_add]

/-- The thirty-second value is the softmax of the score along its columns. -/
theorem v32_read (x0 : (⟨S8x2048x256, .f32⟩ : BufTy).Contents (Elt Ideal)) (b : Fin 8) (n m : Fin 2048) :
    val_main_v32 (F := Ideal) x0 (ix3 b n m)
      = Cert.Attend.colSoft (Cert.Attend.score (fun n d => x0 (ix3 b n d))) n m := by
  rw [val_main_v32_apply, val_main_v31_apply, idx_v31, val_main_v30_apply, idx_v30, v29_read, v28_read]
  simp only [Ideal.hostDivf_def]
  rfl

/-! ## The pulled rows -/

theorem lidx_v34 (b : Fin 8) (n : Fin 2048) (d : Fin 256) (k : Fin 2048) : lidx_main_v34 (ix3 b n d) k = ix3 b n k :=
  funext fun a => Fin.ext (by match a with | ⟨0, _⟩ => rfl | ⟨1, _⟩ => rfl | ⟨2, _⟩ => rfl)

theorem ridx_v34 (b : Fin 8) (n : Fin 2048) (d : Fin 256) (k : Fin 2048) : ridx_main_v34 (ix3 b n d) k = ix3 b k d :=
  funext fun a => Fin.ext (by match a with | ⟨0, _⟩ => rfl | ⟨1, _⟩ => rfl | ⟨2, _⟩ => rfl)

/-- The thirty-fourth value is the mixture with the two softmaxes added first. -/
theorem v34_read (x0 : (⟨S8x2048x256, .f32⟩ : BufTy).Contents (Elt Ideal)) (b : Fin 8) (n : Fin 2048) (d : Fin 256) :
    val_main_v34 (F := Ideal) x0 (ix3 b n d) = Cert.Attend.mixJoint (fun n d => x0 (ix3 b n d)) n d := by
  rw [val_main_v34_apply]
  simp only [lidx_v34, ridx_v34, val_main_v33_apply, v21_read, v32_read, Ideal.addf_def]
  rfl

/-- The thirty-seventh value is the row pulled by a tenth of its mixture. -/
theorem v37_read (x0 : (⟨S8x2048x256, .f32⟩ : BufTy).Contents (Elt Ideal)) (b : Fin 8) (n : Fin 2048) (d : Fin 256) :
    val_main_v37 (F := Ideal) x0 (ix3 b n d)
      = Cert.Attend.pulled (Cert.Attend.mixJoint (fun n d => x0 (ix3 b n d))) (fun n d => x0 (ix3 b n d)) n d := by
  rw [val_main_v37_apply, val_main_v36_apply, val_main_v35_apply, val_main_cst_8_apply, v34_read]
  simp only [Ideal.subf_def, Ideal.mulf_def, Ideal.ofBits_def]
  rfl

/-! ## The layer norm -/

theorem idx_v39 (b : Fin 8) (n : Fin 2048) : idx_main_v39 (ix3 b n (0 : Fin 1)) = ix2 b n :=
  funext fun a => Fin.ext (by match a with | ⟨0, _⟩ => rfl | ⟨1, _⟩ => rfl)

theorem idx_v38 (b : Fin 8) (n : Fin 2048) (k : Fin 256) : idx_main_v38 (ix2 b n) k = ix3 b n k :=
  funext fun a => Fin.ext (by match a with | ⟨0, _⟩ => rfl | ⟨1, _⟩ => rfl | ⟨2, _⟩ => rfl)

theorem idx_v42 (b : Fin 8) (n : Fin 2048) (d : Fin 256) : idx_main_v42 (ix3 b n d) = ix3 b n (0 : Fin 1) :=
  funext fun a => Fin.ext (by match a with | ⟨0, _⟩ => rfl | ⟨1, _⟩ => rfl | ⟨2, _⟩ => rfl)

theorem idx_v46 (b : Fin 8) (n : Fin 2048) : idx_main_v46 (ix3 b n (0 : Fin 1)) = ix2 b n :=
  funext fun a => Fin.ext (by match a with | ⟨0, _⟩ => rfl | ⟨1, _⟩ => rfl)

theorem idx_v45 (b : Fin 8) (n : Fin 2048) (k : Fin 256) : idx_main_v45 (ix2 b n) k = ix3 b n k :=
  funext fun a => Fin.ext (by match a with | ⟨0, _⟩ => rfl | ⟨1, _⟩ => rfl | ⟨2, _⟩ => rfl)

theorem idx_v49 (b : Fin 8) (n : Fin 2048) (d : Fin 256) : idx_main_v49 (ix3 b n d) = ix3 b n (0 : Fin 1) :=
  funext fun a => Fin.ext (by match a with | ⟨0, _⟩ => rfl | ⟨1, _⟩ => rfl | ⟨2, _⟩ => rfl)

theorem idx_v54 (b : Fin 8) (n : Fin 2048) (d : Fin 256) : idx_main_v54 (ix3 b n d) = ix3 b n (0 : Fin 1) :=
  funext fun a => Fin.ext (by match a with | ⟨0, _⟩ => rfl | ⟨1, _⟩ => rfl | ⟨2, _⟩ => rfl)

theorem idx_v57 (b : Fin 8) (n : Fin 2048) (d : Fin 256) : idx_main_v57 (ix3 b n d) = ix3 (0 : Fin 1) (0 : Fin 1) d :=
  funext fun a => Fin.ext (by match a with | ⟨0, _⟩ => rfl | ⟨1, _⟩ => rfl | ⟨2, _⟩ => rfl)

theorem idx_v56 (d : Fin 256) : idx_main_v56 (ix3 (0 : Fin 1) (0 : Fin 1) d) = ix1 d :=
  funext fun a => Fin.ext (by match a with | ⟨0, _⟩ => rfl)

theorem idx_v60 (b : Fin 8) (n : Fin 2048) (d : Fin 256) : idx_main_v60 (ix3 b n d) = ix3 (0 : Fin 1) (0 : Fin 1) d :=
  funext fun a => Fin.ext (by match a with | ⟨0, _⟩ => rfl | ⟨1, _⟩ => rfl | ⟨2, _⟩ => rfl)

theorem idx_v59 (d : Fin 256) : idx_main_v59 (ix3 (0 : Fin 1) (0 : Fin 1) d) = ix1 d :=
  funext fun a => Fin.ext (by match a with | ⟨0, _⟩ => rfl)

section LayerNorm

variable (x0 : (⟨S8x2048x256, .f32⟩ : BufTy).Contents (Elt Ideal)) (b : Fin 8) (Y : Fin 2048 → Fin 256 → EReal)
  (hY : ∀ (n : Fin 2048) (d : Fin 256), val_main_v37 (F := Ideal) x0 (ix3 b n d) = Y n d)

include hY

/-- The forty-first value is the mean of the row. -/
theorem v41_read (n : Fin 2048) : val_main_v41 (F := Ideal) x0 (ix3 b n (0 : Fin 1)) = Cert.Attend.rowMean Y n := by
  rw [val_main_v41_apply, val_main_v40_apply, val_main_cst_10_apply, val_main_v39_apply, idx_v39, val_main_v38_apply,
    val_main_cst_9_apply]
  simp only [idx_v38, hY, Ideal.hostDivf_def, Ideal.ofBits_def, Ideal.ofBits_zero_f32, zero_add]
  rfl

/-- The forty-third value is the entry less the mean of its row. -/
theorem v43_read (n : Fin 2048) (d : Fin 256) :
    val_main_v43 (F := Ideal) x0 (ix3 b n d) = Y n d - Cert.Attend.rowMean Y n := by
  rw [val_main_v43_apply, val_main_v42_apply, idx_v42, v41_read x0 b Y hY, hY]
  simp only [Ideal.subf_def]

/-- The forty-eighth value is the variance of the row. -/
theorem v48_read (n : Fin 2048) : val_main_v48 (F := Ideal) x0 (ix3 b n (0 : Fin 1)) = Cert.Attend.rowVar Y n := by
  rw [val_main_v48_apply, val_main_v47_apply, val_main_cst_12_apply, val_main_v46_apply, idx_v46, val_main_v45_apply,
    val_main_cst_11_apply]
  simp only [idx_v45, val_main_v44_apply, v43_read x0 b Y hY, Ideal.mulf_def, Ideal.hostDivf_def, Ideal.ofBits_def,
    Ideal.ofBits_zero_f32, zero_add]
  rfl

/-- The fiftieth value is again the entry less the mean of its row. -/
theorem v50_read (n : Fin 2048) (d : Fin 256) :
    val_main_v50 (F := Ideal) x0 (ix3 b n d) = Y n d - Cert.Attend.rowMean Y n := by
  rw [val_main_v50_apply, val_main_v49_apply, idx_v49, v41_read x0 b Y hY, hY]
  simp only [Ideal.subf_def]

/-- The fifty-third value is the reciprocal root of the variance plus the small word. -/
theorem v53_read (n : Fin 2048) :
    val_main_v53 (F := Ideal) x0 (ix3 b n (0 : Fin 1))
      = Ideal.rsqrt (Cert.Attend.rowVar Y n + Ideal.ofBits .f32 0x358637BD#32) := by
  rw [val_main_v53_apply, val_main_v52_apply, val_main_v51_apply, val_main_cst_13_apply, v48_read x0 b Y hY]
  simp only [Ideal.hostUnary_rsqrt_def, Ideal.addf_def, Ideal.ofBits_def]

/-- The last value is the layer norm of the rows with the scale and the shift read at the column. -/
theorem v61_read (x1 x2 : (⟨S256, .f32⟩ : BufTy).Contents (Elt Ideal)) (n : Fin 2048) (d : Fin 256) :
    val_main_v61 (F := Ideal) x0 x1 x2 (ix3 b n d)
      = Cert.Attend.layerNorm Y (fun d => x1 (ix1 d)) (fun d => x2 (ix1 d)) n d := by
  rw [val_main_v61_apply, val_main_v60_apply, idx_v60, val_main_v59_apply, idx_v59, val_main_v58_apply,
    val_main_v57_apply, idx_v57, val_main_v56_apply, idx_v56, val_main_v55_apply, val_main_v54_apply, idx_v54,
    v53_read x0 b Y hY, v50_read x0 b Y hY]
  simp only [Ideal.addf_def, Ideal.mulf_def]
  rfl

end LayerNorm

/-- The reference's result at batch entry `b`, row `n`, column `d` is the joint-mixture output of that batch entry's matrix. -/
theorem ref_read (x0 : (⟨S8x2048x256, .f32⟩ : BufTy).Contents (Elt Ideal)) (x1 x2 : (⟨S256, .f32⟩ : BufTy).Contents (Elt Ideal))
    (b : Fin 8) (n : Fin 2048) (d : Fin 256) :
    val_main_v61 (F := Ideal) x0 x1 x2 (ix3 b n d)
      = Cert.Attend.outJoint (fun n d => x0 (ix3 b n d)) (fun d => x1 (ix1 d)) (fun d => x2 (ix1 d)) n d := by
  unfold Cert.Attend.outJoint
  exact v61_read x0 b _ (v37_read x0 b) x1 x2 n d

end Cert.RefRead

end
-- ==== Proof.BodyRead.lean ====
/-
  The kernel's body, read at an index: what it leaves at row `n`, column `d` of its output block is the split-mixture
  output of the block it loaded.

  The body's payload is cut into four stages, each a function of the vectors before it: the unit rows, the score matrix
  (the unit rows times their transpose), the row softmax (exponentials of the entries less their rows' tops, over their
  rows' sums), and the pull (the rows less a tenth of the softmax times the rows plus its transpose times the rows).
  Each stage is read at an index `(n, d)` or `(n, m)`: the pointwise operations read through, a reduced vector kept
  as a column `[a] → [a, 1] → [a, b]` reads the reduced vector at the row, a sum or maximum along a row is the sum or
  the top over the row's entries, and a product contracted along one axis is the sum over that axis's coordinate of
  the operands' products. The layer norm that follows is read the same way, and is written in the order of the
  specification: `(Y − mean) * rsqrt (var + ε) * g + b`.
-/
import proofs.«141216_j12730283065572_2_alg».proof.Proof.Attend
import proofs.«141216_j12730283065572_2_alg».proof.Proof.Gen.KernelIdeal.Value
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.BodyRead

open Idealize.ShloMosaic Idealize.ShloMosaic.ValueIdx Cert.KernelIdeal Cert.KernelIdeal.Gen

/-! ## Layout and reduction operations read at an index given by coordinates -/

section Layout
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-- The index of row `n` with coordinate `k` put back on the reduced axis 1 is `(n, k)`. -/
theorem lift_row {a b : ℕ} (h : (⟨2, ![a, b]⟩ : Shape).Reduces [1] ⟨1, ![a]⟩) (n : Fin a) (k : Fin b) :
    h.lift (ix1 n) k = ix2 n k := by
  funext c
  apply Fin.ext
  match c with
  | ⟨0, _⟩ => rfl
  | ⟨1, _⟩ => rfl

/-- A sum along the rows of a matrix, read at row `n`. -/
theorem rowSum_apply {a b : ℕ} (src : FVec Ideal ⟨2, ![a, b]⟩ .f32) (h : (⟨2, ![a, b]⟩ : Shape).Reduces [1] ⟨1, ![a]⟩) (n : Fin a) :
    multiReduction (F := Ideal) .add [1] ⟨1, ![a]⟩ src 0x00000000#32 h (.inl rfl) rfl (ix1 n) = ∑ k : Fin b, src (ix2 n k) := by
  refine (Ideal.multiReduction_add_single src 0x00000000#32 h (.inl rfl) rfl (ix1 n)).trans ?_
  exact Finset.sum_congr rfl fun k _ => congrArg src (lift_row h n k)

/-- A maximum along the rows of a matrix from the word of −∞, read at row `n`. -/
theorem rowMax_apply {a b : ℕ} (src : FVec Ideal ⟨2, ![a, b]⟩ .f32) (h : (⟨2, ![a, b]⟩ : Shape).Reduces [1] ⟨1, ![a]⟩) (n : Fin a) :
    multiReduction (F := Ideal) .maximumf [1] ⟨1, ![a]⟩ src 0xFF800000#32 h (.inl rfl) rfl (ix1 n)
      = Cert.Attend.top fun k : Fin b => src (ix2 n k) := by
  refine (Ideal.multiReduction_maximumf_single src 0xFF800000#32 h (.inl rfl) rfl (ix1 n)).trans ?_
  unfold Cert.Attend.top
  rw [Ideal.ofBits_def]
  exact congrArg (Finset.univ.fold max (Ideal.ofBits .f32 0xFF800000#32)) (funext fun k => congrArg src (lift_row h n k))

/-! ## The body's payload in four stages -/

/-- The unit rows: every entry over the larger of its row's length and the floor. -/
def unitV (v1 : FVec Ideal S2048x256 .f32) : FVec Ideal S2048x256 .f32 :=
  divf v1 (broadcastTo S2048x256 (maximumf (sqrt (shapeCast S2048x1 (multiReduction .add [1] S2048 (mulf v1 v1) 0x00000000#32 reduces_S2048x256_S2048 (.inl rfl) rfl) shapeCasts_S2048_S2048x1)) (broadcast S2048x1 (Scalar.ofBits .f32 0x2B8CBCCC#32))) broadcasts_S2048x1_S2048x256)

/-- The score matrix: the unit rows times their transpose. -/
def scoreV (v9 : FVec Ideal S2048x256 .f32) : FVec Ideal S2048x2048 .f32 :=
  matmul dot_S2048x256_S2048x256_S2048x2048_1_1_0_0_n_n (some .fp32) v9 v9 (constant S2048x2048 .f32 0x00000000#32)

/-- The exponentials of a matrix less its rows' maxima. -/
def expV (v10 : FVec Ideal S2048x2048 .f32) : FVec Ideal S2048x2048 .f32 :=
  exp (subf v10 (broadcastTo S2048x2048 (shapeCast S2048x1 (multiReduction .maximumf [1] S2048 v10 0xFF800000#32 reduces_S2048x2048_S2048 (.inl rfl) rfl) shapeCasts_S2048_S2048x1) broadcasts_S2048x1_S2048x2048))

/-- A matrix over its rows' sums. -/
def normV (v15 : FVec Ideal S2048x2048 .f32) : FVec Ideal S2048x2048 .f32 :=
  divf v15 (broadcastTo S2048x2048 (shapeCast S2048x1 (multiReduction .add [1] S2048 v15 0x00000000#32 reduces_S2048x2048_S2048 (.inl rfl) rfl) shapeCasts_S2048_S2048x1) broadcasts_S2048x1_S2048x2048)

/-- The rows pulled by a tenth of the two products of the weights with the rows. -/
def pullV (v1 : FVec Ideal S2048x256 .f32) (v19 : FVec Ideal S2048x2048 .f32) : FVec Ideal S2048x256 .f32 :=
  subf v1 (mulf (broadcast S2048x256 (Scalar.ofBits .f32 0x3DCCCCCD#32))
    (addf (matmul dot_S2048x2048_S2048x256_S2048x256_1_0_0_1_n_n none (truncf .bf16 v19 bitsLt_bf16_f32) (truncf .bf16 v1 bitsLt_bf16_f32) (constant S2048x256 .f32 0x00000000#32))
          (matmul dot_S2048x2048_S2048x256_S2048x256_0_0_1_1_n_n none (truncf .bf16 v19 bitsLt_bf16_f32) (truncf .bf16 v1 bitsLt_bf16_f32) (constant S2048x256 .f32 0x00000000#32))))

/-- The payload is the four stages in a row. -/
theorem pay2_eq (P0 : Vec Ideal S1x2048x256 .f32) :
    Gen.k0_pay2 (F := Ideal) P0
      = pullV (shapeCast S2048x256 P0 shapeCasts_S1x2048x256_S2048x256)
          (normV (expV (scoreV (unitV (shapeCast S2048x256 P0 shapeCasts_S1x2048x256_S2048x256))))) := rfl

/-! ## The stages read at an index -/

/-- The unit rows at `(n, d)`. -/
theorem unitV_apply (V : FVec Ideal S2048x256 .f32) (X : Fin 2048 → Fin 256 → EReal)
    (hV : ∀ n d, V (ix2 n d) = X n d) (n : Fin 2048) (d : Fin 256) :
    unitV V (ix2 n d) = Cert.Attend.unit X n d := by
  unfold unitV Cert.Attend.unit
  rw [divf_apply, broadcastTo_a1_ab_apply, maximumf_apply]
  show Ideal.div (V (ix2 n d)) (max (Ideal.sqrt (shapeCast S2048x1 _ shapeCasts_S2048_S2048x1 (ix2 n (0 : Fin 1)))) (Ideal.ofBits .f32 0x2B8CBCCC#32)) = _
  rw [shapeCast_a_a1_apply, rowSum_apply, hV]
  simp only [mulf_apply, hV]

/-- The exponentials at `(n, m)`: of the entry less the top of its row. -/
theorem expV_apply (S : FVec Ideal S2048x2048 .f32) (T : Fin 2048 → Fin 2048 → EReal)
    (hS : ∀ n m, S (ix2 n m) = T n m) (n m : Fin 2048) :
    expV S (ix2 n m) = Ideal.exp (T n m - Cert.Attend.top fun k => T n k) := by
  unfold expV
  show Ideal.exp (S (ix2 n m) - broadcastTo S2048x2048 _ broadcasts_S2048x1_S2048x2048 (ix2 n m)) = _
  rw [broadcastTo_a1_ab_apply, shapeCast_a_a1_apply, rowMax_apply, hS]
  simp only [hS]

/-- A matrix over its rows' sums at `(n, m)`. -/
theorem normV_apply (E : FVec Ideal S2048x2048 .f32) (G : Fin 2048 → Fin 2048 → EReal)
    (hE : ∀ n m, E (ix2 n m) = G n m) (n m : Fin 2048) :
    normV E (ix2 n m) = Ideal.div (G n m) (∑ k : Fin 2048, G n k) := by
  unfold normV
  rw [divf_apply, broadcastTo_a1_ab_apply, shapeCast_a_a1_apply, rowSum_apply, hE]
  simp only [hE]

/-! ## The three products read at an index

Each product's operand indices, coordinate by coordinate, and then the product at `(n, ·)` as a sum over the one
contracted coordinate. -/

theorem rows_lhs_0 (i : S2048x2048.Idx) (q : dot_S2048x256_S2048x256_S2048x2048_1_1_0_0_n_n.contr.Idx) :
    (dot_S2048x256_S2048x256_S2048x2048_1_1_0_0_n_n.lhsIdx i q 0).val = (i 0).val := by
  unfold DotDims.lhsIdx
  rw [dif_neg (show ¬(0 : Fin S2048x256.rank) ∈ dot_S2048x256_S2048x256_S2048x2048_1_1_0_0_n_n.lhsBatch by decide), dif_pos (show (0 : Fin S2048x256.rank) ∈ dot_S2048x256_S2048x256_S2048x2048_1_1_0_0_n_n.lhsNonContracting by decide)]
  rfl
theorem rows_lhs_1 (i : S2048x2048.Idx) (q : dot_S2048x256_S2048x256_S2048x2048_1_1_0_0_n_n.contr.Idx) :
    (dot_S2048x256_S2048x256_S2048x2048_1_1_0_0_n_n.lhsIdx i q 1).val = (q ⟨0, by decide⟩).val :=
  dot_S2048x256_S2048x256_S2048x2048_1_1_0_0_n_n.lhsIdx_val_of_single rfl i q
theorem rows_rhs_0 (i : S2048x2048.Idx) (q : dot_S2048x256_S2048x256_S2048x2048_1_1_0_0_n_n.contr.Idx) :
    (dot_S2048x256_S2048x256_S2048x2048_1_1_0_0_n_n.rhsIdx i q 0).val = (i 1).val := by
  unfold DotDims.rhsIdx
  rw [dif_neg (show ¬(0 : Fin S2048x256.rank) ∈ dot_S2048x256_S2048x256_S2048x2048_1_1_0_0_n_n.rhsBatch by decide), dif_pos (show (0 : Fin S2048x256.rank) ∈ dot_S2048x256_S2048x256_S2048x2048_1_1_0_0_n_n.rhsNonContracting by decide)]
  rfl
theorem rows_rhs_1 (i : S2048x2048.Idx) (q : dot_S2048x256_S2048x256_S2048x2048_1_1_0_0_n_n.contr.Idx) :
    (dot_S2048x256_S2048x256_S2048x2048_1_1_0_0_n_n.rhsIdx i q 1).val = (q ⟨0, by decide⟩).val :=
  dot_S2048x256_S2048x256_S2048x2048_1_1_0_0_n_n.rhsIdx_val_of_single rfl i q

/-- Rows times rows (both operands contracted along axis 1): entry `(n, m)` is the inner product of row `n` of the
    left operand and row `m` of the right. -/
theorem mmRows_apply (A B : FVec Ideal S2048x256 .f32) (n m : Fin 2048) :
    matmul dot_S2048x256_S2048x256_S2048x2048_1_1_0_0_n_n (some .fp32) A B (constant (F := Ideal) S2048x2048 .f32 0x00000000#32) (ix2 n m)
      = ∑ k : Fin 256, A (ix2 n k) * B (ix2 m k) := by
  simp only [matmul]
  rw [Ideal.matmul_constant_zero_apply, ← Equiv.sum_comp (contrEquiv1 dot_S2048x256_S2048x256_S2048x2048_1_1_0_0_n_n 256 rfl rfl).symm]
  refine Finset.sum_congr rfl fun k _ => ?_
  have hk := contrEquiv1_symm_val dot_S2048x256_S2048x256_S2048x2048_1_1_0_0_n_n 256 rfl rfl k
  have el : dot_S2048x256_S2048x256_S2048x2048_1_1_0_0_n_n.lhsIdx (ix2 n m) ((contrEquiv1 dot_S2048x256_S2048x256_S2048x2048_1_1_0_0_n_n 256 rfl rfl).symm k) = ix2 n k := funext fun a => Fin.ext (by
    match a with
    | ⟨0, _⟩ => exact rows_lhs_0 _ _
    | ⟨1, _⟩ => exact (rows_lhs_1 _ _).trans hk)
  have er : dot_S2048x256_S2048x256_S2048x2048_1_1_0_0_n_n.rhsIdx (ix2 n m) ((contrEquiv1 dot_S2048x256_S2048x256_S2048x2048_1_1_0_0_n_n 256 rfl rfl).symm k) = ix2 m k := funext fun a => Fin.ext (by
    match a with
    | ⟨0, _⟩ => exact rows_rhs_0 _ _
    | ⟨1, _⟩ => exact (rows_rhs_1 _ _).trans hk)
  rw [el, er]

theorem plain_lhs_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide), dif_pos (show (0 : Fin S2048x2048.rank) ∈ dot_S2048x2048_S2048x256_S2048x256_1_0_0_1_n_n.lhsNonContracting by decide)]
  rfl
theorem plain_lhs_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
theorem plain_rhs_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
theorem plain_rhs_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide), dif_pos (show (1 : Fin S2048x256.rank) ∈ dot_S2048x2048_S2048x256_S2048x256_1_0_0_1_n_n.rhsNonContracting by decide)]
  rfl

/-- A square matrix times a matrix (the left operand's axis 1 against the right's axis 0). -/
theorem mmPlain_apply (A : FVec Ideal S2048x2048 .bf16) (B : FVec Ideal S2048x256 .bf16) (n : Fin 2048) (d : Fin 256) :
    matmul dot_S2048x2048_S2048x256_S2048x256_1_0_0_1_n_n none A B (constant (F := Ideal) S2048x256 .f32 0x00000000#32) (ix2 n d)
      = ∑ k : Fin 2048, A (ix2 n k) * B (ix2 k d) := by
  simp only [matmul]
  rw [Ideal.matmul_constant_zero_apply, ← Equiv.sum_comp (contrEquiv1 dot_S2048x2048_S2048x256_S2048x256_1_0_0_1_n_n 2048 rfl rfl).symm]
  refine Finset.sum_congr rfl fun k _ => ?_
  have hk := contrEquiv1_symm_val dot_S2048x2048_S2048x256_S2048x256_1_0_0_1_n_n 2048 rfl rfl k
  have el : dot_S2048x2048_S2048x256_S2048x256_1_0_0_1_n_n.lhsIdx (ix2 n d) ((contrEquiv1 dot_S2048x2048_S2048x256_S2048x256_1_0_0_1_n_n 2048 rfl rfl).symm k) = ix2 n k := funext fun a => Fin.ext (by
    match a with
    | ⟨0, _⟩ => exact plain_lhs_0 _ _
    | ⟨1, _⟩ => exact (plain_lhs_1 _ _).trans hk)
  have er : dot_S2048x2048_S2048x256_S2048x256_1_0_0_1_n_n.rhsIdx (ix2 n d) ((contrEquiv1 dot_S2048x2048_S2048x256_S2048x256_1_0_0_1_n_n 2048 rfl rfl).symm k) = ix2 k d := funext fun a => Fin.ext (by
    match a with
    | ⟨0, _⟩ => exact (plain_rhs_0 _ _).trans hk
    | ⟨1, _⟩ => exact plain_rhs_1 _ _)
  rw [el, er]

theorem trans_lhs_0 (i : S2048x256.Idx) (q : dot_S2048x2048_S2048x256_S2048x256_0_0_1_1_n_n.contr.Idx) :
    (dot_S2048x2048_S2048x256_S2048x256_0_0_1_1_n_n.lhsIdx i q 0).val = (q ⟨0, by decide⟩).val :=
  dot_S2048x2048_S2048x256_S2048x256_0_0_1_1_n_n.lhsIdx_val_of_single rfl i q
theorem trans_lhs_1 (i : S2048x256.Idx) (q : dot_S2048x2048_S2048x256_S2048x256_0_0_1_1_n_n.contr.Idx) :
    (dot_S2048x2048_S2048x256_S2048x256_0_0_1_1_n_n.lhsIdx i q 1).val = (i 0).val := by
  unfold DotDims.lhsIdx
  rw [dif_neg (show ¬(1 : Fin S2048x2048.rank) ∈ dot_S2048x2048_S2048x256_S2048x256_0_0_1_1_n_n.lhsBatch by decide), dif_pos (show (1 : Fin S2048x2048.rank) ∈ dot_S2048x2048_S2048x256_S2048x256_0_0_1_1_n_n.lhsNonContracting by decide)]
  rfl
theorem trans_rhs_0 (i : S2048x256.Idx) (q : dot_S2048x2048_S2048x256_S2048x256_0_0_1_1_n_n.contr.Idx) :
    (dot_S2048x2048_S2048x256_S2048x256_0_0_1_1_n_n.rhsIdx i q 0).val = (q ⟨0, by decide⟩).val :=
  dot_S2048x2048_S2048x256_S2048x256_0_0_1_1_n_n.rhsIdx_val_of_single rfl i q
theorem trans_rhs_1 (i : S2048x256.Idx) (q : dot_S2048x2048_S2048x256_S2048x256_0_0_1_1_n_n.contr.Idx) :
    (dot_S2048x2048_S2048x256_S2048x256_0_0_1_1_n_n.rhsIdx i q 1).val = (i 1).val := by
  unfold DotDims.rhsIdx
  rw [dif_neg (show ¬(1 : Fin S2048x256.rank) ∈ dot_S2048x2048_S2048x256_S2048x256_0_0_1_1_n_n.rhsBatch by decide), dif_pos (show (1 : Fin S2048x256.rank) ∈ dot_S2048x2048_S2048x256_S2048x256_0_0_1_1_n_n.rhsNonContracting by decide)]
  rfl

/-- The transpose of a square matrix times a matrix (axis 0 of both operands contracted). -/
theorem mmTrans_apply (A : FVec Ideal S2048x2048 .bf16) (B : FVec Ideal S2048x256 .bf16) (n : Fin 2048) (d : Fin 256) :
    matmul dot_S2048x2048_S2048x256_S2048x256_0_0_1_1_n_n none A B (constant (F := Ideal) S2048x256 .f32 0x00000000#32) (ix2 n d)
      = ∑ k : Fin 2048, A (ix2 k n) * B (ix2 k d) := by
  simp only [matmul]
  rw [Ideal.matmul_constant_zero_apply, ← Equiv.sum_comp (contrEquiv1 dot_S2048x2048_S2048x256_S2048x256_0_0_1_1_n_n 2048 rfl rfl).symm]
  refine Finset.sum_congr rfl fun k _ => ?_
  have hk := contrEquiv1_symm_val dot_S2048x2048_S2048x256_S2048x256_0_0_1_1_n_n 2048 rfl rfl k
  have el : dot_S2048x2048_S2048x256_S2048x256_0_0_1_1_n_n.lhsIdx (ix2 n d) ((contrEquiv1 dot_S2048x2048_S2048x256_S2048x256_0_0_1_1_n_n 2048 rfl rfl).symm k) = ix2 k n := funext fun a => Fin.ext (by
    match a with
    | ⟨0, _⟩ => exact (trans_lhs_0 _ _).trans hk
    | ⟨1, _⟩ => exact trans_lhs_1 _ _)
  have er : dot_S2048x2048_S2048x256_S2048x256_0_0_1_1_n_n.rhsIdx (ix2 n d) ((contrEquiv1 dot_S2048x2048_S2048x256_S2048x256_0_0_1_1_n_n 2048 rfl rfl).symm k) = ix2 k d := funext fun a => Fin.ext (by
    match a with
    | ⟨0, _⟩ => exact (trans_rhs_0 _ _).trans hk
    | ⟨1, _⟩ => exact trans_rhs_1 _ _)
  rw [el, er]

/-- The score matrix at `(n, m)`. -/
theorem scoreV_apply (U : FVec Ideal S2048x256 .f32) (X : Fin 2048 → Fin 256 → EReal)
    (hU : ∀ n d, U (ix2 n d) = Cert.Attend.unit X n d) (n m : Fin 2048) :
    scoreV U (ix2 n m) = Cert.Attend.score X n m := by
  unfold scoreV Cert.Attend.score
  rw [mmRows_apply]
  simp only [hU]

/-- The pulled rows at `(n, d)`, for weights `P`. -/
theorem pullV_apply (V : FVec Ideal S2048x256 .f32) (W : FVec Ideal S2048x2048 .f32) (X : Fin 2048 → Fin 256 → EReal)
    (P : Fin 2048 → Fin 2048 → EReal) (hV : ∀ n d, V (ix2 n d) = X n d) (hW : ∀ n m, W (ix2 n m) = P n m)
    (n : Fin 2048) (d : Fin 256) :
    pullV V W (ix2 n d)
      = X n d - Ideal.ofBits .f32 0x3DCCCCCD#32 * ((∑ m : Fin 2048, P n m * X m d) + ∑ m : Fin 2048, P m n * X m d) := by
  unfold pullV
  rw [subf_apply, mulf_apply, addf_apply, mmPlain_apply, mmTrans_apply, hV]
  simp only [truncf_apply, hV, hW]
  rfl

/-- The payload at `(n, d)`: the row pulled by a tenth of the split mixture. -/
theorem pay2_apply (P0 : Vec Ideal S1x2048x256 .f32) (n : Fin 2048) (d : Fin 256) :
    Gen.k0_pay2 (F := Ideal) P0 (ix2 n d)
      = Cert.Attend.pulled (Cert.Attend.mixSplit fun n d => P0 (ix3 (0 : Fin 1) n d)) (fun n d => P0 (ix3 (0 : Fin 1) n d)) n d := by
  rw [pay2_eq]
  have hV : ∀ n d, shapeCast S2048x256 P0 shapeCasts_S1x2048x256_S2048x256 (ix2 n d) = P0 (ix3 (0 : Fin 1) n d) :=
    fun n d => shapeCast_1ab_ab_apply P0 _ n d
  have hU := unitV_apply _ _ hV
  have hS := scoreV_apply _ _ hU
  have hE := expV_apply _ _ hS
  have hN := normV_apply _ _ hE
  rw [pullV_apply _ _ _ _ hV hN]
  rfl

/-! ## The layer norm of the pulled rows -/

/-- The rows' means, spread along the rows. -/
def meanV (Y : FVec Ideal S2048x256 .f32) : FVec Ideal S2048x256 .f32 :=
  broadcastTo S2048x256 (divf (shapeCast S2048x1 (multiReduction .add [1] S2048 Y 0x00000000#32 reduces_S2048x256_S2048 (.inl rfl) rfl) shapeCasts_S2048_S2048x1) (broadcast S2048x1 (Scalar.ofBits .f32 0x43800000#32))) broadcasts_S2048x1_S2048x256

/-- What the body leaves, from the pulled rows `Y` and the scale and shift rows. -/
def normOut (Y : FVec Ideal S2048x256 .f32) (P1 P2 : Vec Ideal S1x256 .f32) : Vec Ideal S1x2048x256 .f32 := fun y =>
  FloatOps.addf (FloatOps.mulf (FloatOps.mulf (FloatOps.subf (Y (Value.ix3_0 y)) (FloatOps.divf ((multiReduction .add [1] S2048 Y 0x00000000#32 reduces_S2048x256_S2048 (.inl rfl) rfl) (Value.ix3_1 y)) (Scalar.ofBits .f32 0x43800000#32))) (FloatOps.rsqrt (FloatOps.addf (FloatOps.divf ((multiReduction .add [1] S2048 (mulf (subf Y (meanV Y)) (subf Y (meanV Y))) 0x00000000#32 reduces_S2048x256_S2048 (.inl rfl) rfl) (Value.ix3_2 y)) (Scalar.ofBits .f32 0x43800000#32)) (Scalar.ofBits .f32 0x358637BD#32)))) (P1 (Value.ix3_3 y))) (P2 (Value.ix3_4 y))

/-- The body's output block is that, of the payload. -/
theorem e3_eq (P0 : Vec Ideal S1x2048x256 .f32) (P1 P2 : Vec Ideal S1x256 .f32) :
    Cert.KernelIdeal.Value.E3 (F := Ideal) P0 P1 P2 = normOut (Gen.k0_pay2 (F := Ideal) P0) P1 P2 := rfl

theorem ix3_0_eq (u : Fin 1) (n : Fin 2048) (d : Fin 256) : Value.ix3_0 (ix3 u n d) = ix2 n d := by
  funext a; apply Fin.ext
  match a with
  | ⟨0, _⟩ => rfl
  | ⟨1, _⟩ => rfl
theorem ix3_1_eq (u : Fin 1) (n : Fin 2048) (d : Fin 256) : Value.ix3_1 (ix3 u n d) = ix1 n := by
  funext a; apply Fin.ext
  match a with
  | ⟨0, _⟩ => rfl
theorem ix3_2_eq (u : Fin 1) (n : Fin 2048) (d : Fin 256) : Value.ix3_2 (ix3 u n d) = ix1 n := by
  funext a; apply Fin.ext
  match a with
  | ⟨0, _⟩ => rfl
theorem ix3_3_eq (u : Fin 1) (n : Fin 2048) (d : Fin 256) : Value.ix3_3 (ix3 u n d) = ix2 (0 : Fin 1) d := by
  funext a; apply Fin.ext
  match a with
  | ⟨0, _⟩ => rfl
  | ⟨1, _⟩ => rfl
theorem ix3_4_eq (u : Fin 1) (n : Fin 2048) (d : Fin 256) : Value.ix3_4 (ix3 u n d) = ix2 (0 : Fin 1) d := by
  funext a; apply Fin.ext
  match a with
  | ⟨0, _⟩ => rfl
  | ⟨1, _⟩ => rfl

/-- The spread means at `(n, d)`: the mean of row `n`. -/
theorem meanV_apply (Y : FVec Ideal S2048x256 .f32) (Z : Fin 2048 → Fin 256 → EReal)
    (hY : ∀ n d, Y (ix2 n d) = Z n d) (n : Fin 2048) (d : Fin 256) :
    meanV Y (ix2 n d) = Cert.Attend.rowMean Z n := by
  unfold meanV Cert.Attend.rowMean
  rw [broadcastTo_a1_ab_apply, divf_apply, shapeCast_a_a1_apply, rowSum_apply, broadcast_apply]
  simp only [hY]
  rfl

/-- The body's output at `(u, n, d)` is the layer norm of the pulled rows. -/
theorem normOut_apply (Y : FVec Ideal S2048x256 .f32) (P1 P2 : Vec Ideal S1x256 .f32) (Z : Fin 2048 → Fin 256 → EReal)
    (hY : ∀ n d, Y (ix2 n d) = Z n d) (u : Fin 1) (n : Fin 2048) (d : Fin 256) :
    normOut Y P1 P2 (ix3 u n d)
      = Cert.Attend.layerNorm Z (fun d => P1 (ix2 (0 : Fin 1) d)) (fun d => P2 (ix2 (0 : Fin 1) d)) n d := by
  unfold normOut Cert.Attend.layerNorm
  rw [ix3_0_eq, ix3_1_eq, ix3_2_eq, ix3_3_eq, ix3_4_eq, rowSum_apply, rowSum_apply, hY]
  simp only [mulf_apply, subf_apply, meanV_apply Y Z hY, hY]
  rfl

/-- What the body leaves at `(u, n, d)` of its output block is the split-mixture output of the loaded block. -/
theorem body_read (P0 : Vec Ideal S1x2048x256 .f32) (P1 P2 : Vec Ideal S1x256 .f32) (u : Fin 1) (n : Fin 2048) (d : Fin 256) :
    Cert.KernelIdeal.Value.E3 (F := Ideal) P0 P1 P2 (ix3 u n d)
      = Cert.Attend.outSplit (fun n d => P0 (ix3 (0 : Fin 1) n d)) (fun d => P1 (ix2 (0 : Fin 1) d)) (fun d => P2 (ix2 (0 : Fin 1) d)) n d := by
  rw [e3_eq]
  exact normOut_apply _ P1 P2 _ (pay2_apply P0) u n d

end Cert.BodyRead

end
-- ==== Proof.Whole.lean ====
/-
  From what each grid point writes back to the whole result array.

  Grid point `t` stages batch entry `t` of the first argument (a block of one matrix), the scale and the shift as
  `[1, 256]` rows, and writes back one block of the result: batch entry `t`. What it writes is the body's result of
  the staged blocks, which is the split-mixture output of that batch entry's matrix. The eight blocks cover the
  result array, so after the run the array is, at every index `(b, n, d)`, the split-mixture output of batch entry
  `b` at `(n, d)`.
-/
import proofs.«141216_j12730283065572_2_alg».proof.Proof.Gen.KernelIdeal.Value
import proofs.«141216_j12730283065572_2_alg».proof.Proof.Attend
import proofs.«141216_j12730283065572_2_alg».proof.Proof.BodyRead
import Idealize.ShloMosaic.Lib.ValueIdx
import Idealize.ShloMosaic.Lib.Pipeline.Value
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as one function of the three argument arrays: at `(b, n, d)`, the split-mixture output of batch
    entry `b`'s matrix with the scale and the shift, at `(n, d)`. -/
def wholeSplit (a : S8x2048x256.Idx → EReal) (g s : S256.Idx → EReal) : S8x2048x256.Idx → EReal := fun i =>
  Cert.Attend.outSplit (fun n d => a (ix3 (i 0 : Fin 8) n d)) (fun d => g (ix1 d)) (fun d => s (ix1 d)) (i 1 : Fin 2048) (i 2 : Fin 256)

theorem hz3 : (![0, 0, 0] : Fin 3 → Nat) = fun _ => 0 := funext fun a => by fin_cases a <;> rfl
theorem hz2 : (![0, 0] : Fin 2 → Nat) = fun _ => 0 := funext fun a => by fin_cases a <;> rfl

/-- A `[256]` vector recast as a `[1, 256]` row reads, at `(0, d)`, the vector at `d`. -/
theorem row_cast (x : S256.Idx → EReal) (d : Fin 256) :
    shapeCast S1x256 x shapeCasts_S256_S1x256 (ix2 (0 : Fin 1) d) = x (ix1 d) :=
  shapeCast_apply x _ _ _ (by rw [Shape.rowMajor_val_two, Shape.rowMajor_val_one]; show d.val = 0 * 256 + d.val; omega)

/-- The scale as the region finds it: the `[256]` argument recast as a `[1, 256]` row. -/
theorem V_scale (c : Dev nD) (d : Fin 256) :
    (V m c main_v0 : S1x256.Idx → EReal) (ix2 (0 : Fin 1) d) = (m ((c : Thread nD τ).loc main_arg1) : S256.Idx → EReal) (ix1 d) := by
  have e : (V m c main_v0 : S1x256.Idx → EReal) = shapeCast S1x256 (m ((c : Thread nD τ).loc main_arg1) : S256.Idx → EReal) shapeCasts_S256_S1x256 := by
    dsimp only [V, hostOps0]; after_results; rfl
  rw [e]
  exact row_cast _ d

/-- The shift as the region finds it, likewise. -/
theorem V_shift (c : Dev nD) (d : Fin 256) :
    (V m c main_v1 : S1x256.Idx → EReal) (ix2 (0 : Fin 1) d) = (m ((c : Thread nD τ).loc main_arg2) : S256.Idx → EReal) (ix1 d) := by
  have e : (V m c main_v1 : S1x256.Idx → EReal) = shapeCast S1x256 (m ((c : Thread nD τ).loc main_arg2) : S256.Idx → EReal) shapeCasts_S256_S1x256 := by
    dsimp only [V, hostOps0]; after_results; rfl
  rw [e]
  exact row_cast _ d

/-- The printed index maps over the eight grid points: the matrix windows move with the point along the batch axis,
    the two row windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What the body leaves at an index of its output block, for blocks that are batch entry `b` of an array `a` and the
    rows of a scale `g` and a shift `s`: the whole-array function at `(b, n, d)`. -/
theorem block_value (x0 : Vec Ideal S1x2048x256 .f32) (x1 x2 : Vec Ideal S1x256 .f32)
    (a : S8x2048x256.Idx → EReal) (g s : S256.Idx → EReal) (b : Fin 8)
    (h0 : ∀ (n : Fin 2048) (d : Fin 256), x0 (ix3 (0 : Fin 1) n d) = a (ix3 b n d))
    (h1 : ∀ d : Fin 256, x1 (ix2 (0 : Fin 1) d) = g (ix1 d))
    (h2 : ∀ d : Fin 256, x2 (ix2 (0 : Fin 1) d) = s (ix1 d))
    (y : S1x2048x256.Idx) :
    out0_3 x0 x1 x2 y = wholeSplit a g s (ix3 b (y 1 : Fin 2048) (y 2 : Fin 256)) := by
  obtain ⟨u, n, d, rfl⟩ : ∃ (u : Fin 1) (n : Fin 2048) (d : Fin 256), y = ix3 u n d := ⟨y 0, y 1, y 2, eq_ix3 y⟩
  show _ = wholeSplit a g s (ix3 b n d)
  unfold out0_3
  rw [Cert.KernelIdeal.Value.canon3_eq]
  simp only [View.ld_unit_zero (S := S1x2048x256) hz3, View.ld_unit_zero (S := S1x256) hz2]
  rw [Cert.BodyRead.body_read]
  have e0 : (fun (n : Fin 2048) (d : Fin 256) => x0 (ix3 (0 : Fin 1) n d)) = fun n d => a (ix3 b n d) :=
    funext fun n => funext fun d => h0 n d
  have e1 : (fun d : Fin 256 => x1 (ix2 (0 : Fin 1) d)) = fun d => g (ix1 d) := funext h1
  have e2 : (fun d : Fin 256 => x2 (ix2 (0 : Fin 1) d)) = fun d => s (ix1 d) := funext h2
  rw [e0, e1, e2]
  rfl

/-- What grid point `t` writes back is block `t` of the whole-array function of the arrays as the region finds them. -/
theorem flushed_eq (c : Dev nD) (t : Fin cfg0.N) :
    (dats m 0 c).flushed 3 t = ((cfg0.win 3).blk t).view.read (Elt Ideal)
      (wholeSplit (V m c main_arg0) (m ((c : Thread nD τ).loc main_arg1)) (m ((c : Thread nD τ).loc main_arg2))) := by
  rw [Cert.KernelIdeal.Value.flushed3]
  obtain ⟨e00, e01, e02, e10, e11, e20, e21, e30, e31, e32⟩ := idx_facts t
  have hN : grid0.N = 8 := N_0
  have htl : t.val < 8 := by have h8 : t.val < grid0.N := t.isLt; omega
  funext j
  show out0_3 (iblk m c 0 t) (iblk m c 1 t) (iblk m c 2 t) j = wholeSplit _ _ _ (((cfg0.win 3).blk t).view.emb j)
  refine (block_value (iblk m c 0 t) (iblk m c 1 t) (iblk m c 2 t) (V m c main_arg0) (m ((c : Thread nD τ).loc main_arg1)) (m ((c : Thread nD τ).loc main_arg2)) ⟨t.val, htl⟩ ?_ ?_ ?_ j).trans ?_
  · intro n d
    show V m c main_arg0 (((cfg0.win 0).blk t).view.emb (ix3 (0 : Fin 1) n d)) = _
    refine congrArg _ (funext fun a => Fin.ext ?_)
    match a with
    | ⟨0, _⟩ => show win0_0.index t (0 : Fin 3) * 1 + 1 * 0 = t.val; omega
    | ⟨1, _⟩ => show win0_0.index t (1 : Fin 3) * 2048 + 1 * n.val = n.val; omega
    | ⟨2, _⟩ => show win0_0.index t (2 : Fin 3) * 256 + 1 * d.val = d.val; omega
  · intro d
    show V m c main_v0 (((cfg0.win 1).blk t).view.emb (ix2 (0 : Fin 1) d)) = _
    refine (congrArg _ (funext fun a => Fin.ext ?_)).trans (V_scale m c d)
    match a with
    | ⟨0, _⟩ => show win0_1.index t (0 : Fin 2) * 1 + 1 * 0 = 0; omega
    | ⟨1, _⟩ => show win0_1.index t (1 : Fin 2) * 256 + 1 * d.val = d.val; omega
  · intro d
    show V m c main_v1 (((cfg0.win 2).blk t).view.emb (ix2 (0 : Fin 1) d)) = _
    refine (congrArg _ (funext fun a => Fin.ext ?_)).trans (V_shift m c d)
    match a with
    | ⟨0, _⟩ => show win0_2.index t (0 : Fin 2) * 1 + 1 * 0 = 0; omega
    | ⟨1, _⟩ => show win0_2.index t (1 : Fin 2) * 256 + 1 * d.val = d.val; omega
  · refine congrArg _ (funext fun a => Fin.ext ?_)
    have hj0 : (j 0).val < 1 := (j 0).isLt
    match a with
    | ⟨0, _⟩ => show t.val = win0_3.index t (0 : Fin 3) * 1 + 1 * (j 0).val; omega
    | ⟨1, _⟩ => show (j 1).val = win0_3.index t (1 : Fin 3) * 2048 + 1 * (j 1).val; omega
    | ⟨2, _⟩ => show (j 2).val = win0_3.index t (2 : Fin 3) * 256 + 1 * (j 2).val; omega

/-- An index of the result array is in point `t`'s block iff each coordinate is in the block's range on its axis. -/
theorem mem_blk (t : Fin cfg0.N) (i : S8x2048x256.Idx) :
    i ∈ ((cfg0.win 3).blk t).view.set ↔ ∀ a : Fin 3, win0_3.index t a * S1x2048x256.size a ≤ (i a).val ∧ (i a).val < win0_3.index t a * S1x2048x256.size a + S1x2048x256.size a := by
  show i ∈ ((View.whole main_v2).slice (win0_3.rect t)).set ↔ _
  rw [View.set_slice_whole, Rect.mem_set_unit]
  exact Iff.rfl

/-- Every index `(b, n, d)` of the result array is in the block of grid point `b`. -/
theorem cover (i : S8x2048x256.Idx) : ∃ t : Fin cfg0.N, (cfg0.win 3).flush t = true ∧ i ∈ ((cfg0.win 3).blk t).view.set := by
  have hN : grid0.N = 8 := N_0
  have hi0 : (i 0).val < 8 := (i 0).isLt
  have hi1 : (i 1).val < 2048 := (i 1).isLt
  have hi2 : (i 2).val < 256 := (i 2).isLt
  refine ⟨⟨(i 0).val, by show (i 0).val < grid0.N; omega⟩, flush0_3 _, ?_⟩
  rw [mem_blk]
  obtain ⟨-, -, -, -, -, -, -, e30, e31, e32⟩ := idx_facts ⟨(i 0).val, by show (i 0).val < grid0.N; omega⟩
  intro a
  match a with
  | ⟨0, _⟩ => show win0_3.index _ (0 : Fin 3) * 1 ≤ (i 0).val ∧ (i 0).val < win0_3.index _ (0 : Fin 3) * 1 + 1; rw [e30]; show (i 0).val * 1 ≤ (i 0).val ∧ (i 0).val < (i 0).val * 1 + 1; omega
  | ⟨1, _⟩ => show win0_3.index _ (1 : Fin 3) * 2048 ≤ (i 1).val ∧ (i 1).val < win0_3.index _ (1 : Fin 3) * 2048 + 2048; rw [e31]; omega
  | ⟨2, _⟩ => show win0_3.index _ (2 : Fin 3) * 256 ≤ (i 2).val ∧ (i 2).val < win0_3.index _ (2 : Fin 3) * 256 + 256; rw [e32]; omega

/-- The result array after the run is the whole-array function of the three arguments. -/
theorem final (c : Dev nD) : (dats m 0 c).arrAt 3 cfg0.N
    = wholeSplit (m ((c : Thread nD τ).loc main_arg0)) (m ((c : Thread nD τ).loc main_arg1)) (m ((c : Thread nD τ).loc main_arg2)) := by
  have h := (dats m 0 c).arrAt_eq_of_cover 3 _ (fun t _ => flushed_eq m c t) cover
  rw [V_main_arg0] at h
  exact h

/-- The kernel's run, read: the result array at the whole-array function of the arguments, the arguments unchanged. -/
theorem run : θ_run defs (onTc (τ := τ) (main (F := Ideal))) ⟨m, fun _ => 0, ρ⟩ fun r => ∀ c : Dev nD,
      r.2.mem ((c : Thread nD τ).loc main_v2)
        = wholeSplit (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Whole

end
-- ==== Proof.lean ====
/-
  The kernel against its reference, over the extended reals.

  Both programs take a batch of eight matrices of 2048 rows and 256 columns, a scale and a shift. For each matrix:
  every row is divided by its Euclidean length; the matrix of inner products of unit rows is put through a softmax
  along its rows and along its columns; every row is pulled by a tenth of the softmax-weighted mixture of all rows; and
  the result is layer-normalised with the scale and the shift.

  The reference adds the two softmaxes and multiplies the sum into the rows once, the whole batch at a time. The kernel
  handles one matrix per grid point; it computes the row softmax only and multiplies it into the rows twice, once as
  it stands and once transposed, adding the two products. The matrix of inner products is symmetric, so its column
  softmax is the transpose of its row softmax; the inputs are finite, so every softmax weight is a real number that
  is not negative, and over the extended reals a product distributes over a sum of such weights: the two mixtures
  agree, and with them the results, index by index.

  The kernel's side: what each grid point writes back is the body's result of its blocks (the generated value leg),
  which is the split-mixture output of that batch entry (the body read at an index); the eight blocks cover the result
  array. The reference's side: the generated run, read operation by operation at an index, is the joint-mixture
  output. The precondition gives that every entry of the first argument is a real number.
-/
import proofs.«141216_j12730283065572_2_alg».proof.Defs
import proofs.«141216_j12730283065572_2_alg».proof.Proof.Gen.Kernel
import proofs.«141216_j12730283065572_2_alg».proof.Proof.Gen.Kernel.Skeleton
import proofs.«141216_j12730283065572_2_alg».proof.Proof.Gen.Kernel.Launch
import proofs.«141216_j12730283065572_2_alg».proof.Proof.Gen.Kernel.Points
import proofs.«141216_j12730283065572_2_alg».proof.Proof.Gen.Kernel.Frame
import proofs.«141216_j12730283065572_2_alg».proof.Proof.Gen.KernelIdeal
import proofs.«141216_j12730283065572_2_alg».proof.Proof.Gen.KernelIdeal.Skeleton
import proofs.«141216_j12730283065572_2_alg».proof.Proof.Gen.KernelIdeal.Launch
import proofs.«141216_j12730283065572_2_alg».proof.Proof.Gen.KernelIdeal.Points
import proofs.«141216_j12730283065572_2_alg».proof.Proof.Gen.KernelIdeal.Frame
import proofs.«141216_j12730283065572_2_alg».proof.Proof.Gen.ReferenceIdeal
import proofs.«141216_j12730283065572_2_alg».proof.Proof.Gen.Pre_finite_inputs
import proofs.«141216_j12730283065572_2_alg».proof.Proof.Gen.KernelIdeal.Value
import proofs.«141216_j12730283065572_2_alg».proof.Proof.Gen.ReferenceIdeal.Run
import proofs.«141216_j12730283065572_2_alg».proof.Proof.Gen.ReferenceIdeal.Read
import proofs.«141216_j12730283065572_2_alg».proof.Proof.Attend
import proofs.«141216_j12730283065572_2_alg».proof.Proof.AttendLaws
import proofs.«141216_j12730283065572_2_alg».proof.Proof.Finite
import proofs.«141216_j12730283065572_2_alg».proof.Proof.RefRead
import proofs.«141216_j12730283065572_2_alg».proof.Proof.Whole
import Idealize.ShloMosaic.Adequacy
import Idealize.ShloMosaic.Init

noncomputable section

namespace Cert.Proof

open Idealize.ShloMosaic Idealize.SL.Sem Idealize.ShloMosaic.ValueIdx

/-- The reference's result array, for a first argument of real numbers, is the kernel's whole-array function: at
    each index the joint-mixture output of the batch entry, which for a real matrix is the split-mixture output. -/
theorem ref_whole (x0 : Cert.ReferenceIdeal.S8x2048x256.Idx → EReal) (x1 x2 : Cert.ReferenceIdeal.S256.Idx → EReal)
    (hx : ∀ i, Cert.LibFinite.IsFin (x0 i)) :
    Cert.ReferenceIdeal.Read.val_main_v61 (F := Ideal) x0 x1 x2 = Cert.KernelIdeal.Whole.wholeSplit x0 x1 x2 := by
  funext i
  obtain ⟨b, n, d, rfl⟩ : ∃ (b : Fin 8) (n : Fin 2048) (d : Fin 256), i = ix3 b n d := ⟨i 0, i 1, i 2, eq_ix3 i⟩
  rw [Cert.RefRead.ref_read, Cert.Attend.outJoint_eq_outSplit _ (fun n d => hx _)]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- From memories that agree on the arguments both programs end with the same result array: the kernel's run leaves the
    whole-array function of the arguments, the reference's run leaves its last stage, and for finite inputs the two are
    one function. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2]
  exact ref_whole _ _ _ (fun i => Cert.FiniteIn.x_real _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
